-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x512x24x12 : Shape := ⟨5, ![32, 8, 512, 24, 12]⟩
abbrev S32 : Shape := ⟨1, ![32]⟩
abbrev S_ : Shape := ⟨0, ![]⟩

class Facts : Prop where
  bcast_S_S32x8x512x24x12 : S_.BroadcastsInDim S32x8x512x24x12 (![] : Fin 0 → Fin S32x8x512x24x12.rank)
  reducesTo_S32x8x512x24x12_S_d0_1_2_3_4 : S32x8x512x24x12.ReducesTo [0, 1, 2, 3, 4] S_
  h_S_ : 0 < S_.numel

variable [Facts]

def fn {F : FTy → Type} [FloatOps F] (main_arg0 : FVec F S32x8x512x24x12 .f32) (main_arg1 : IVec S32 32) : IVec S_ 1 :=
  let main_v0 : FVec F S32x8x512x24x12 .f32 := Host.absf main_arg0
  let main_cst : FVec F S_ .f32 := constant S_ .f32 0x7F800000#32
  let main_v1 : FVec F S32x8x512x24x12 .f32 := broadcastInDim S32x8x512x24x12 ![] bcast_S_S32x8x512x24x12 main_cst
  let main_v2 : IVec S32x8x512x24x12 1 := cmpf .olt main_v0 main_v1
  let main_c : IVec S_ 1 := constantI S_ 1 1#1
  let main_v3 : IVec S_ 1 := (fun x v => Host.reduce IntOp.andi x v reducesTo_S32x8x512x24x12_S_d0_1_2_3_4 h_S_) main_v2 main_c
  main_v3
-- ==== Kernel.lean ====
abbrev S32x8x512x24x12 : Shape := ⟨5, ![32, 8, 512, 24, 12]⟩
abbrev S32 : Shape := ⟨1, ![32]⟩
abbrev S256x512x288 : Shape := ⟨3, ![256, 512, 288]⟩
abbrev S256x288 : Shape := ⟨2, ![256, 288]⟩
abbrev S16x512x288 : Shape := ⟨3, ![16, 512, 288]⟩
abbrev S16x288 : Shape := ⟨2, ![16, 288]⟩
abbrev S16x128x288 : Shape := ⟨3, ![16, 128, 288]⟩
abbrev S32x8x288 : Shape := ⟨3, ![32, 8, 288]⟩
abbrev S32x1 : Shape := ⟨2, ![32, 1]⟩
abbrev S32x8 : Shape := ⟨2, ![32, 8]⟩
abbrev S32x8x1 : Shape := ⟨3, ![32, 8, 1]⟩
abbrev S32x1x288 : Shape := ⟨3, ![32, 1, 288]⟩
abbrev S32x288 : Shape := ⟨2, ![32, 288]⟩
abbrev S32x1x1 : Shape := ⟨3, ![32, 1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S32x8x512x24x12, .f32⟩
  | .hbm, ⟨1, _⟩ => ⟨S32, .i32⟩
  | .hbm, ⟨2, _⟩ => ⟨S256x512x288, .f32⟩
  | .hbm, ⟨3, _⟩ => ⟨S256x288, .f32⟩
  | .hbm, ⟨4, _⟩ => ⟨S32x8x288, .f32⟩
  | .hbm, ⟨5, _⟩ => ⟨S32x1, .f32⟩
  | .hbm, ⟨6, _⟩ => ⟨S_, .f32⟩
  | .hbm, ⟨7, _⟩ => ⟨S_, .f32⟩
  | .local _ .vmem, ⟨0, _⟩ => ⟨S16x512x288, .f32⟩
  | .local _ .vmem, ⟨1, _⟩ => ⟨S16x512x288, .f32⟩
  | .local _ .vmem, ⟨2, _⟩ => ⟨S16x288, .f32⟩
  | .local _ .vmem, ⟨3, _⟩ => ⟨S16x288, .f32⟩
  | .local _ .vmem, ⟨4, _⟩ => ⟨S32x8x288, .f32⟩
  | .local _ .vmem, ⟨5, _⟩ => ⟨S32x1, .f32⟩
  | _, _ => ⟨S32x8x512x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 3 → Nat :=
  let c0 : Index := 0#32
  let c128_i32 : BitVec 32 := 128#32
  let v1 : BitVec 32 := Scalar.muli c0_i32 c128_i32
  let v2 : BitVec 32 := v1
  let v3 : Index := Scalar.indexCast v2
  let c0_0 : Index := 0#32
  ![0, v3.toNat, 0]
def k0_mult2 : BitVec 32 :=
  let c1_i32 : BitVec 32 := 1#32
  let c128_i32_2 : BitVec 32 := 128#32
  let v9 : BitVec 32 := Scalar.muli c1_i32 c128_i32_2
  v9
def k0_mult3 : BitVec 32 :=
  let c2_i32 : BitVec 32 := 2#32
  let c128_i32_6 : BitVec 32 := 128#32
  let v17 : BitVec 32 := Scalar.muli c2_i32 c128_i32_6
  v17
def k0_mult4 : BitVec 32 :=
  let c3_i32 : BitVec 32 := 3#32
  let c128_i32_10 : BitVec 32 := 128#32
  let v25 : BitVec 32 := Scalar.muli c3_i32 c128_i32_10
  v25
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x8x288 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S32x8x512x24x12_S256x512x288 : S32x8x512x24x12.ShapeCasts S256x512x288
  h_S16x128x288 : 0 < S16x128x288.numel
  shapeCasts_S16x128x288_S16x128x288 : S16x128x288.ShapeCasts S16x128x288
  reduces_S16x128x288_S16x288 : S16x128x288.Reduces [1] S16x288
  inb_S16x288_S16x288_0_0 : ∀ a, (![0, 0] : Fin 2 → Nat) a + S16x288.size a ≤ S16x288.size a
  h_S16x288 : 0 < S16x288.numel
  shapeCasts_S256x288_S32x8x288 : S256x288.ShapeCasts S32x8x288
  inb_S32x8x288_S32x8x288_0_0_0 : ∀ a, (![0, 0, 0] : Fin 3 → Nat) a + S32x8x288.size a ≤ S32x8x288.size a
  h_S32x8x288 : 0 < S32x8x288.numel
  shapeCasts_S32x8x288_S32x8x288 : S32x8x288.ShapeCasts S32x8x288
  reduces_S32x8x288_S32x8 : S32x8x288.Reduces [2] S32x8
  shapeCasts_S32x8_S32x8x1 : S32x8.ShapeCasts S32x8x1
  broadcasts_S32x8x1_S32x8x288 : S32x8x1.Broadcasts S32x8x288
  slices_S32x8x288_o0_0_0_S32x1x288 : S32x8x288.Slices ![0, 0, 0] S32x1x288
  shapeCasts_S32x1x288_S32x288 : S32x1x288.ShapeCasts S32x288
  slices_S32x8x288_o0_1_0_S32x1x288 : S32x8x288.Slices ![0, 1, 0] S32x1x288
  reduces_S32x288_S32 : S32x288.Reduces [1] S32
  shapeCasts_S32_S32x1 : S32.ShapeCasts S32x1
  slices_S32x8x288_o0_2_0_S32x1x288 : S32x8x288.Slices ![0, 2, 0] S32x1x288
  slices_S32x8x288_o0_3_0_S32x1x288 : S32x8x288.Slices ![0, 3, 0] S32x1x288
  slices_S32x8x288_o0_4_0_S32x1x288 : S32x8x288.Slices ![0, 4, 0] S32x1x288
  slices_S32x8x288_o0_5_0_S32x1x288 : S32x8x288.Slices ![0, 5, 0] S32x1x288
  slices_S32x8x288_o0_6_0_S32x1x288 : S32x8x288.Slices ![0, 6, 0] S32x1x288
  slices_S32x8x288_o0_7_0_S32x1x288 : S32x8x288.Slices ![0, 7, 0] S32x1x288
  reduces_S32x8x1_S32x1 : S32x8x1.Reduces [1] S32x1
  shapeCasts_S32x1_S32x1x1 : S32x1.ShapeCasts S32x1x1
  shapeCasts_S32x1x1_S32x1 : S32x1x1.ShapeCasts S32x1
  inb_S32x1_S32x1_0_0 : ∀ a, (![0, 0] : Fin 2 → Nat) a + S32x1.size a ≤ S32x1.size a
  h_S32x1 : 0 < S32x1.numel
  reducesTo_S32x1_S_d0_1 : S32x1.ReducesTo [0, 1] S_
  h_S_ : 0 < S_.numel
  hrank0 : 0 < grid0.rank
  k0_mult1_dvd : 128 ∣ k0_mult1.toNat
  k0_off1_inb : ∀ (r : Fin 4), ∀ a, (k0_off1 (BitVec.ofNat 32 r.val)) a + S16x128x288.size a ≤ S16x512x288.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x288.size a ≤ S256x512x288.size a
  hwx0_0 : ∀ i : grid0.Coords, EltTy.bits .f32 = 32 ∨ (Rect.block (s := S256x512x288) S16x512x288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x288.size a ≤ S256x288.size a
  hwx0_1 : ∀ i : grid0.Coords, EltTy.bits .f32 = 32 ∨ (Rect.block (s := S256x288) S16x288.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x8x288.size a ≤ S32x8x288.size a
  hwx1_0 : ∀ i : grid1.Coords, EltTy.bits .f32 = 32 ∨ (Rect.block (s := S32x8x288) S32x8x288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)

variable [Facts₀]

abbrev win0_0 : Pipeline.Window sig grid0 :=
  Pipeline.Window.ofSpec (Memref.whole main_v0) S16x512x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x288.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S32x8x288.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S32x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x8x512x24x12 : Shape := ⟨5, ![32, 8, 512, 24, 12]⟩
abbrev S32 : Shape := ⟨1, ![32]⟩
abbrev S_ : Shape := ⟨0, ![]⟩
abbrev S32x8x24x12 : Shape := ⟨4, ![32, 8, 24, 12]⟩
abbrev S32x8x288 : Shape := ⟨3, ![32, 8, 288]⟩
abbrev S32x8 : Shape := ⟨2, ![32, 8]⟩
abbrev S32x8x1 : Shape := ⟨3, ![32, 8, 1]⟩
abbrev S32x8x1x288 : Shape := ⟨4, ![32, 8, 1, 288]⟩
abbrev S32x1x8x288 : Shape := ⟨4, ![32, 1, 8, 288]⟩
abbrev S32x8x8x288 : Shape := ⟨4, ![32, 8, 8, 288]⟩
abbrev S32x8x8 : Shape := ⟨3, ![32, 8, 8]⟩
abbrev S8x8 : Shape := ⟨2, ![8, 8]⟩
abbrev S1x8x8 : Shape := ⟨3, ![1, 8, 8]⟩

abbrev nBuf : Space → Nat
  | .hbm => 47
  | .vmem => 0
  | .smem => 0
  | _ => 0

abbrev bufTy : (tb : Table) → Fin (tcTables nBuf tb) → BufTy
  | .hbm, ⟨0, _⟩ => ⟨S32x8x512x24x12, .f32⟩
  | .hbm, ⟨1, _⟩ => ⟨S32, .i32⟩
  | .hbm, ⟨2, _⟩ => ⟨S32x8x512x24x12, .f32⟩
  | .hbm, ⟨3, _⟩ => ⟨S_, .f32⟩
  | .hbm, ⟨4, _⟩ => ⟨S32x8x24x12, .f32⟩
  | .hbm, ⟨5, _⟩ => ⟨S32x8x288, .f32⟩
  | .hbm, ⟨6, _⟩ => ⟨S32x8x288, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S32x8x288, .f32⟩
  | .hbm, ⟨15, _⟩ => ⟨S32x8x288, .f32⟩
  | .hbm, ⟨16, _⟩ => ⟨S32x8x1x288, .f32⟩
  | .hbm, ⟨17, _⟩ => ⟨S32x1x8x288, .f32⟩
  | .hbm, ⟨18, _⟩ => ⟨S32x8x8x288, .f32⟩
  | .hbm, ⟨19, _⟩ => ⟨S32x8x8x288, .f32⟩
  | .hbm, ⟨20, _⟩ => ⟨S32x8x8x288, .f32⟩
  | .hbm, ⟨21, _⟩ => ⟨S_, .f32⟩
  | .hbm, ⟨22, _⟩ => ⟨S32x8x8, .f32⟩
  | .hbm, ⟨23, _⟩ => ⟨S_, .f32⟩
  | .hbm, ⟨24, _⟩ => ⟨S8x8, .f32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S32x8x8, .f32⟩
  | .hbm, ⟨36, _⟩ => ⟨S32x8x8, .f32⟩
  | .hbm, ⟨37, _⟩ => ⟨S_, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S_, .f32⟩
  | _, _ => ⟨S32x8x512x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  reducesTo_S32x8x512x24x12_S32x8x24x12_d2 : S32x8x512x24x12.ReducesTo [2] S32x8x24x12
  h_S_ : 0 < S_.numel
  shapeCasts_S32x8x24x12_S32x8x288 : S32x8x24x12.ShapeCasts S32x8x288
  reducesTo_S32x8x288_S32x8_d2 : S32x8x288.ReducesTo [2] S32x8
  bcast_S32x8_S32x8x1_0_1 : S32x8.BroadcastsInDim S32x8x1 (![0, 1] : Fin 2 → Fin S32x8x1.rank)
  bcast_S_S32x8x1 : S_.BroadcastsInDim S32x8x1 (![] : Fin 0 → Fin S32x8x1.rank)
  bcast_S32x8x1_S32x8x288_0_1_2 : S32x8x1.BroadcastsInDim S32x8x288 (![0, 1, 2] : Fin 3 → Fin S32x8x288.rank)
  bcast_S32x8x288_S32x8x1x288_0_1_3 : S32x8x288.BroadcastsInDim S32x8x1x288 (![0, 1, 3] : Fin 3 → Fin S32x8x1x288.rank)
  bcast_S32x8x288_S32x1x8x288_0_2_3 : S32x8x288.BroadcastsInDim S32x1x8x288 (![0, 2, 3] : Fin 3 → Fin S32x1x8x288.rank)
  bcast_S32x8x1x288_S32x8x8x288_0_1_2_3 : S32x8x1x288.BroadcastsInDim S32x8x8x288 (![0, 1, 2, 3] : Fin 4 → Fin S32x8x8x288.rank)
  bcast_S32x1x8x288_S32x8x8x288_0_1_2_3 : S32x1x8x288.BroadcastsInDim S32x8x8x288 (![0, 1, 2, 3] : Fin 4 → Fin S32x8x8x288.rank)
  reducesTo_S32x8x8x288_S32x8x8_d3 : S32x8x8x288.ReducesTo [3] S32x8x8
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S32x8x8_0_1_2 : S1x8x8.BroadcastsInDim S32x8x8 (![0, 1, 2] : Fin 3 → Fin S32x8x8.rank)
  reducesTo_S32x8x8_S32_d1_2 : S32x8x8.ReducesTo [1, 2] S32
  reducesTo_S32x8x288_S32_d1_2 : S32x8x288.ReducesTo [1, 2] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.KernelRun.lean ====
/-
  The idealized kernel's run with its RESULT named.  @main is five segments: a reshape, the channel-reduction region,
  a reshape, the normalise-and-overlap region, and the final sum on the host.  The launch theorem for such a chain
  ends with every unscoped buffer at the contents the last boundary of the fold names; the frame claim reads only
  the two arguments out of that state.  Here the same chain is read at the result buffer as well: after every weakly
  fair execution the result holds the fold's last contents at that buffer, and the arguments are as launched.
-/
import proofs.«150542_j46866683133955_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    fold through the five segments names for it and both arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c)⟩)

end Cert.KernelIdeal.RunValue

end
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.SquareSum.lean ====
/-
  The first kernel: the channel reduction.  Its operand is the input read as a [256, 512, 288] array A (256 = image x
  part, 512 channels, 288 positions); point t of its 16-point grid stages rows 16t .. 16t+15 of A, squares them and
  adds the 512 channels in four chunks of 128 from a zero block, and writes the [16, 288] result back as rows
  16t .. 16t+15 of the output.  So the output array ends holding, at (r, q), the sum over all 512 channels of
  A(r, c, q)^2: four consecutive chunk sums added to zero are the whole sum (addition on the extended reals is
  associative and commutative, nothing else is used), and the 16 blocks of 16 rows tile the 256 rows.
-/
import proofs.«150542_j46866683133955_2_alg».proof.Proof.Gen.KernelIdeal.Frame
import proofs.«150542_j46866683133955_2_alg».proof.Proof.LibBlockSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.SquareSum

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-! ## A chunk's sum, and four chunks -/

/-- The index a reduction over the MIDDLE axis of [16, 128, 288] puts back over (r, q) at coordinate k is (r, k, q). -/
theorem lift_mid (h : S16x128x288.Reduces [1] S16x288) (r : Fin 16) (q : Fin 288) (k : Fin (S16x128x288.size 1)) :
    h.lift (ix2 r q) k = ix3 r (⟨k.val, k.isLt⟩ : Fin 128) q := by
  funext c; apply Fin.ext
  fin_cases c <;> rfl

/-- A chunk's channel sum at exact arithmetic: at (r, q) the sum over its 128 channels. -/
theorem chunkSum_apply (w : FVec Ideal S16x128x288 .f32) (h : S16x128x288.Reduces [1] S16x288) (hφ : FKind.Formats .f32)
    (hacc : (0x00000000#32 : BitVec 32) = 0x00000000#32) (r : Fin 16) (q : Fin 288) :
    multiReduction .add [1] S16x288 w 0x00000000#32 h hφ hacc (ix2 r q) = ∑ k : Fin 128, w (ix3 r k q) := by
  refine (Ideal.multiReduction_add_single w 0x00000000#32 h hφ hacc (ix2 r q)).trans ?_
  exact Finset.sum_congr rfl fun k _ => congrArg w (lift_mid h r q k)

/-- The body's arithmetic at (r, q): zero, plus each of the four loaded chunks' sums of squares in turn. -/
theorem pay_apply (v4 v12 v20 v28 : Vec Ideal S16x128x288 .f32) (r : Fin 16) (q : Fin 288) :
    k0_pay1 (F := Ideal) v4 v12 v20 v28 (ix2 r q)
      = 0 + (∑ k : Fin 128, v4 (ix3 r k q) * v4 (ix3 r k q)) + (∑ k : Fin 128, v12 (ix3 r k q) * v12 (ix3 r k q))
          + (∑ k : Fin 128, v20 (ix3 r k q) * v20 (ix3 r k q)) + (∑ k : Fin 128, v28 (ix3 r k q) * v28 (ix3 r k q)) := by
  unfold k0_pay1
  simp only [shapeCast_self]
  rw [addf_apply, addf_apply, addf_apply, addf_apply]
  refine congrArg₂ (· + ·) (congrArg₂ (· + ·) (congrArg₂ (· + ·) (congrArg₂ (· + ·) ?_ ?_) ?_) ?_) ?_
  · exact Ideal.ofBits_zero_f32
  · exact chunkSum_apply _ _ _ _ r q
  · exact chunkSum_apply _ _ _ _ r q
  · exact chunkSum_apply _ _ _ _ r q
  · exact chunkSum_apply _ _ _ _ r q

/-- A load of 128 channels from channel o on reads, at (r, k, q), the staged block at (r, o + k, q). -/
theorem ld_chunk (x0 : Vec Ideal S16x512x288 .f32) (o : ℕ) (ho : o + 128 ≤ 512)
    (inb : ∀ a, (![0, o, 0] : Fin 3 → ℕ) a + (![16, 128, 288] : Fin 3 → ℕ) a ≤ S16x512x288.size a)
    (r : Fin 16) (k : Fin 128) (q : Fin 288) :
    View.ld x0 (Rect.unit (s := S16x512x288) ![0, o, 0] ![16, 128, 288] inb) (ix3 r k q)
      = x0 (ix3 r (⟨o + k.val, by have := k.isLt; omega⟩ : Fin 512) q) := by
  show x0 _ = x0 _
  refine congrArg x0 (funext fun a => Fin.ext ?_)
  match a with
  | ⟨0, _⟩ => show 0 + 1 * r.val = r.val; omega
  | ⟨1, _⟩ => show o + 1 * k.val = o + k.val; omega
  | ⟨2, _⟩ => show 0 + 1 * q.val = q.val; omega

/-- A row's channel sum taken in four chunks of 128 from zero is the sum over all 512 channels. -/
theorem four_chunks (g : ℕ → EReal) :
    0 + (∑ k : Fin 128, g (0 + k.val)) + (∑ k : Fin 128, g (128 + k.val)) + (∑ k : Fin 128, g (256 + k.val))
        + (∑ k : Fin 128, g (384 + k.val)) = ∑ K : Fin 512, g K.val := by
  rw [← BlockSum.sum_fin_blocks g 128 4 512 rfl]
  simp only [Finset.sum_range_succ, Finset.sum_range_zero, zero_add, Nat.mul_zero, Nat.mul_one, Nat.reduceMul]

/-- What the body leaves in the output's staging buffer, whatever the staging memrefs: at (r, q) the sum over all
    512 channels of the squares of the staged block. -/
theorem out_apply (c : Dev nD) (i : grid0.Coords) (a1 : Memref sig .tc .vmem S16x512x288 .f32) (h1 : a1.IsWhole)
    (a2 : Memref sig .tc .vmem S16x288 .f32) (h2 : a2.IsWhole) (x0 : Vec Ideal S16x512x288 .f32) (r : Fin 16) (q : Fin 288) :
    out0_A_1 (F := Ideal) c i a1 h1 a2 h2 x0 (ix2 r q) = ∑ K : Fin 512, x0 (ix3 r K q) * x0 (ix3 r K q) := by
  unfold out0_A_1
  rw [View.read_writes_eq_canon _ _ _ (cover0_A_1 c i a1 h1 a2 h2 x0)]
  unfold kernelRun0_A
  dsimp only
  rw [View.canon_unit_zero hz2]
  simp only [View.readAt_eq_ld, h1.read_unread]
  refine (pay_apply _ _ _ _ r q).trans ?_
  let g : ℕ → EReal := fun n => if h : n < 512 then x0 (ix3 r ⟨n, h⟩ q) * x0 (ix3 r ⟨n, h⟩ q) else 0
  have hg : ∀ K : Fin 512, g K.val = x0 (ix3 r K q) * x0 (ix3 r K q) := fun K => dif_pos K.isLt
  have hc : ∀ (o : ℕ) (ho : o + 128 ≤ 512)
      (inb : ∀ a, (![0, o, 0] : Fin 3 → ℕ) a + (![16, 128, 288] : Fin 3 → ℕ) a ≤ S16x512x288.size a) (k : Fin 128),
      View.ld x0 (Rect.unit (s := S16x512x288) ![0, o, 0] ![16, 128, 288] inb) (ix3 r k q)
        * View.ld x0 (Rect.unit (s := S16x512x288) ![0, o, 0] ![16, 128, 288] inb) (ix3 r k q) = g (o + k.val) :=
    fun o ho inb k => by
      rw [ld_chunk x0 o ho inb r k q]
      have hlt : o + k.val < 512 := by have := k.isLt; omega
      show _ = (if h : o + k.val < 512 then x0 (ix3 r ⟨o + k.val, h⟩ q) * x0 (ix3 r ⟨o + k.val, h⟩ q) else 0)
      rw [dif_pos hlt]
  refine Eq.trans ?_ ((four_chunks g).trans (Finset.sum_congr rfl fun K _ => hg K))
  refine congrArg₂ (· + ·) (congrArg₂ (· + ·) (congrArg₂ (· + ·) (congrArg₂ (· + ·) rfl ?_) ?_) ?_) ?_
  · exact Finset.sum_congr rfl fun k _ => hc 0 (by omega) _ k
  · exact Finset.sum_congr rfl fun k _ => hc 128 (by omega) _ k
  · exact Finset.sum_congr rfl fun k _ => hc 256 (by omega) _ k
  · exact Finset.sum_congr rfl fun k _ => hc 384 (by omega) _ k

/-! ## From the sixteen blocks to the array -/

variable (V : (c : Dev nD) → (b : Ref sig .tc) → Buf (Elt Ideal) ((c : Thread nD τ).loc b))

/-- The channel sums of squares of a [256, 512, 288] array: at (r, q) the sum over the 512 channels. -/
def channelSums (A : S256x512x288.Idx → EReal) : S256x288.Idx → EReal :=
  fun i => ∑ K : Fin 512, A (ix3 (i 0) K (i 1)) * A (ix3 (i 0) K (i 1))

/-- The printed index maps over the grid: point t stages block row t of the operand and writes block row t of the
    output; the other block coordinates are zero. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- What point t writes back is block t of the channel sums of the operand as the region finds it. -/
theorem flushed_eq (c : Dev nD) (t : Fin cfg0.N) :
    (dat0 V c).flushed 1 t = ((cfg0.win 1).blk t).view.read (Elt Ideal) (channelSums (V c main_v0)) := by
  show (cfg0.win 1).cut (grid0.coords t) ((dat0 V c).after 1 t) = _
  rw [after0_1]
  unfold outsAt0
  obtain ⟨e0, e1, e2, e3, e4⟩ := idx_facts t
  funext j
  obtain ⟨r, q, rfl⟩ : ∃ (r : Fin 16) (q : Fin 288), j = ix2 r q := ⟨j 0, j 1, eq_ix2 j⟩
  show out0_A_1 c (grid0.coords t) (ms0_0 t) (hs0_0 t) (ms0_1 t) (hs0_1 t) (iblk0 V c 0 t) (ix2 r q)
    = channelSums (V c main_v0) (((cfg0.win 1).blk t).view.emb (ix2 r q))
  rw [out_apply]
  unfold channelSums
  refine Finset.sum_congr rfl fun K _ => ?_
  have e : iblk0 V c 0 t (ix3 r K q) = V c main_v0 (ix3 ((((cfg0.win 1).blk t).view.emb (ix2 r q)) 0) K
      ((((cfg0.win 1).blk t).view.emb (ix2 r q)) 1)) := by
    show V c main_v0 (((cfg0.win 0).blk t).view.emb (ix3 r K q)) = _
    refine congrArg (V c main_v0) (funext fun a => Fin.ext ?_)
    match a with
    | ⟨0, _⟩ =>
      show win0_0.index t 0 * 16 + 1 * r.val = win0_1.index t 0 * 16 + 1 * r.val
      rw [e0, e3]
    | ⟨1, _⟩ =>
      show win0_0.index t 1 * 512 + 1 * K.val = K.val
      rw [e1]; omega
    | ⟨2, _⟩ =>
      show win0_0.index t 2 * 288 + 1 * q.val = win0_1.index t 1 * 288 + 1 * q.val
      rw [e2, e4]
  rw [e]

/-- An index of the output array is in point t's block iff each coordinate is in the block's range on its axis. -/
theorem mem_blk (t : Fin cfg0.N) (i : S256x288.Idx) :
    i ∈ ((cfg0.win 1).blk t).view.set ↔ ∀ a : Fin 2, win0_1.index t a * S16x288.size a ≤ (i a).val
      ∧ (i a).val < win0_1.index t a * S16x288.size a + S16x288.size a := by
  show i ∈ ((View.whole main_v1).slice (win0_1.rect t)).set ↔ _
  rw [View.set_slice_whole, Rect.mem_set_unit]
  exact Iff.rfl

/-- Every row of the output is in some point's block: row r in block r / 16. -/
theorem covered (i : S256x288.Idx) :
    ∃ t : Fin cfg0.N, (cfg0.win 1).flush t = true ∧ i ∈ ((cfg0.win 1).blk t).view.set := by
  have hN : cfg0.N = 16 := N_0
  have h0 : (i 0).val < 256 := (i 0).isLt
  have h1 : (i 1).val < 288 := (i 1).isLt
  have ht : (i 0).val / 16 < cfg0.N := by rw [hN]; omega
  obtain ⟨-, -, -, e3, e4⟩ := idx_facts ⟨(i 0).val / 16, ht⟩
  refine ⟨⟨(i 0).val / 16, ht⟩, flush0_1 _, ?_⟩
  rw [mem_blk]
  intro a
  match a with
  | ⟨0, _⟩ =>
    show win0_1.index ⟨(i 0).val / 16, ht⟩ 0 * 16 ≤ (i 0).val ∧ (i 0).val < win0_1.index ⟨(i 0).val / 16, ht⟩ 0 * 16 + 16
    rw [e3]
    show (i 0).val / 16 * 16 ≤ (i 0).val ∧ (i 0).val < (i 0).val / 16 * 16 + 16
    omega
  | ⟨1, _⟩ =>
    show win0_1.index ⟨(i 0).val / 16, ht⟩ 1 * 288 ≤ (i 1).val ∧ (i 1).val < win0_1.index ⟨(i 0).val / 16, ht⟩ 1 * 288 + 288
    rw [e4]
    omega

/-- So the output array ends holding the channel sums of the operand as the region finds it. -/
theorem final (c : Dev nD) : (dat0 V c).arrAt 1 cfg0.N = channelSums (V c main_v0) :=
  (dat0 V c).arrAt_eq_of_cover 1 (channelSums (V c main_v0)) (fun t _ => flushed_eq V c t) covered

end Cert.KernelIdeal.SquareSum

end
-- ==== Proof.Overlap.lean ====
/-
  The part-separation loss as one function of the squared-feature array f[b, p, q] (32 images, 8 parts, 288 positions),
  on the extended reals, and the two counting facts that let a sum written pair by pair meet a sum written as a
  weighted 8 x 8 table.

  For an image b: each part's row f[b, p, ·] is divided by its Euclidean norm clamped below at eps (`unit`); the overlap
  of two parts is the sum over positions of the smaller of the two normalised values (`pair`); the numerator adds the
  overlaps of the 28 pairs j < k (`upper`), the denominator is the total of the normalised values clamped below at
  eps; the loss is the sum over images of numerator / denominator.  Nothing here needs finiteness: only
  commutativity and associativity of + and x * 0 = 0, x * 1 = x are used, which hold at the infinities too.
-/
import Idealize.ShloMosaic.PureOps.Ideal.Laws
import Idealize.ShloMosaic.Lib.ValueIdx

noncomputable section

namespace Cert.Overlap

open Idealize.ShloMosaic Idealize.ShloMosaic.ValueIdx

/-- The clamp both programs use: the f32 word nearest 1e-12, whatever extended real it denotes. -/
abbrev eps : EReal := Ideal.ofBits .f32 0x2B8CBCCC#32

/-- The squared-feature array's index type. -/
abbrev Feat := (⟨3, ![32, 8, 288]⟩ : Shape).Idx → EReal

/-- A part's clamped Euclidean norm over its 288 positions. -/
def rowNorm (f : Feat) (b : Fin 32) (p : Fin 8) : EReal :=
  max (Ideal.sqrt (∑ k : Fin 288, f (ix3 b p k) * f (ix3 b p k))) eps

/-- The normalised value of part p of image b at position q. -/
def unit (f : Feat) (b : Fin 32) (p : Fin 8) (q : Fin 288) : EReal :=
  Ideal.div (f (ix3 b p q)) (rowNorm f b p)

/-- The overlap of two rows: the sum over positions of the smaller value. -/
def pair (g : Fin 8 → Fin 288 → EReal) (j k : Fin 8) : EReal := ∑ q : Fin 288, min (g j q) (g k q)

/-- The 28 entries above the diagonal of an 8 x 8 table, added one after the other from zero, row by row. -/
def upper (P : Fin 8 → Fin 8 → EReal) : EReal :=
  0 + P 0 1 + P 0 2 + P 0 3 + P 0 4 + P 0 5 + P 0 6 + P 0 7
    + P 1 2 + P 1 3 + P 1 4 + P 1 5 + P 1 6 + P 1 7
    + P 2 3 + P 2 4 + P 2 5 + P 2 6 + P 2 7
    + P 3 4 + P 3 5 + P 3 6 + P 3 7
    + P 4 5 + P 4 6 + P 4 7
    + P 5 6 + P 5 7
    + P 6 7

/-- One image's ratio: the pairs' overlaps over the clamped total. -/
def ratio (f : Feat) (b : Fin 32) : EReal :=
  Ideal.div (upper (pair (unit f b))) (max (∑ p : Fin 8, ∑ q : Fin 288, unit f b p q) eps)

/-- The loss: the images' ratios added. -/
def loss (f : Feat) : EReal := ∑ b : Fin 32, ratio f b

/-- A table weighted by 1 above the diagonal and 0 elsewhere, summed over all 64 entries (each entry itself "zero plus
    the overlap"), is the 28 entries above the diagonal added in row order: the zero products vanish, and the rest is a
    regrouping of one sum. -/
theorem weighted_eq_upper (P : Fin 8 → Fin 8 → EReal) :
    (∑ j : Fin 8, ∑ k : Fin 8, (0 + P j k) * (if j < k then (1 : EReal) else 0)) = upper P := by
  simp only [Fin.sum_univ_eight, Fin.reduceLT, if_true, if_false, ↓reduceIte, mul_zero, mul_one, add_zero, zero_add, upper,
    add_assoc]

end Cert.Overlap

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibRank3Axes.lean ====
/-
  A RANK-3 ARRAY `[a, b, c]` read at an index given by coordinates, for the three layout steps that single out or
  forget ONE of its outer axes:

  • a slice along the LAST axis from offset `o` reads, at `(i, j, t)`, the operand at `(i, j, o + t)` (the companion of
    the library's middle-axis slice);
  • a broadcast of `[a, b, 1]` to `[a, b, c]` reads, at `(i, j, t)`, the operand at `(i, j, 0)`: the last coordinate is
    forgotten;
  • a broadcast of `[1, b, c]` to `[a, b, c]` reads, at `(t, i, j)`, the operand at `(0, i, j)`: the first coordinate is
    forgotten.

  A kept axis whose extent happens to be 1 has the coordinate 0 in any case, so no side condition on the extents is needed.
  General in the extents and in the element type; nothing here mentions a program.
-/
import Idealize.ShloMosaic.Lib.Pipeline.Value
import Idealize.ShloMosaic.Lib.ValueIdx

namespace Cert.LibRank3Axes

open Idealize.ShloMosaic Idealize.ShloMosaic.ValueIdx

variable {α : Type}

/-- A rank-3 array cut along its last axis from `o` reads, at `(i, j, t)`, the source at `(i, j, k)` with `k = o + t`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (i : Fin n0) (j : Fin n1) (t : Fin m) (k : Fin n2) (hk : k.val = o + t.val) :
    extractStridedSlice ⟨3, ![n0, n1, m]⟩ ![0, 0, o] X h (ix3 i j t) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array broadcast to `[a, b, c]` reads, at `(i, j, t)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (t : Fin c) :
    broadcastTo ⟨3, ![a, b, c]⟩ v h (ix3 i j t) = v (ix3 i j (0 : Fin 1)) := by
  refine broadcastTo_apply v h (ix3 i j t) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(t, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (t : Fin a) (i : Fin b) (j : Fin c) :
    broadcastTo ⟨3, ![a, b, c]⟩ v h (ix3 t i j) = v (ix3 (0 : Fin 1) i j) := by
  refine broadcastTo_apply v h (ix3 t i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibRank3Axes
-- ==== Proof.Ratio.lean ====
/-
  The second kernel: normalise, overlap, divide.  Its one grid point stages the whole [32, 8, 288] array f and leaves
  the [32, 1] column of per-image ratios.  The body divides each row of f by its clamped norm (v9), then for each of the
  28 pairs j < k, in row order, takes rows j and k of v9, their pointwise minimum, its sum over the 288 positions, and
  adds it to a running column started at zero; the denominator is v9's total over positions, then over parts, clamped;
  the quotient is stored.  Read at image b this is `Overlap.ratio f b` term for term: the running column after all
  pairs is exactly the chain `Overlap.upper` writes.
-/
import proofs.«150542_j46866683133955_2_alg».proof.Proof.Gen.KernelIdeal.Frame
import proofs.«150542_j46866683133955_2_alg».proof.Proof.Overlap
import proofs.«150542_j46866683133955_2_alg».proof.Proof.LibKeepdims
import proofs.«150542_j46866683133955_2_alg».proof.Proof.LibRank3Axes
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Ratio

open Cert.KernelIdeal Cert.KernelIdeal.Gen
open Idealize.ShloMosaic Idealize.ShloMosaic.TcCoe Idealize.SL.Sem Idealize.ShloMosaic.ValueIdx
open Cert.Overlap Cert.Lib.Keepdims Cert.LibRank3Axes
open Idealize.ShloMosaic.Pipeline (Dat)

variable {α : Type}

/-! ## The layout steps of the body, read at coordinates -/

/-- The index a reduction over the LAST axis of [32, 8, 288] puts back over (b, p) at coordinate k is (b, p, k). -/
theorem lift_positions (h : S32x8x288.Reduces [2] S32x8) (b : Fin 32) (p : Fin 8) (k : Fin (S32x8x288.size 2)) :
    h.lift (ix2 b p) k = ix3 b p (⟨k.val, k.isLt⟩ : Fin 288) := by
  funext c; apply Fin.ext
  fin_cases c <;> rfl

/-- A sum over positions at exact arithmetic: at (b, p) the sum of the row's 288 entries. -/
theorem positions_apply (w : FVec Ideal S32x8x288 .f32) (h : S32x8x288.Reduces [2] S32x8) (hφ : FKind.Formats .f32)
    (hacc : (0x00000000#32 : BitVec 32) = 0x00000000#32) (b : Fin 32) (p : Fin 8) :
    multiReduction .add [2] S32x8 w 0x00000000#32 h hφ hacc (ix2 b p) = ∑ q : Fin 288, w (ix3 b p q) := by
  refine (Ideal.multiReduction_add_single w 0x00000000#32 h hφ hacc (ix2 b p)).trans ?_
  exact Finset.sum_congr rfl fun k _ => congrArg w (lift_positions h b p k)

/-- The index a reduction over the MIDDLE axis of [32, 8, 1] puts back over (b, u) at coordinate p is (b, p, u). -/
theorem lift_parts (h : S32x8x1.Reduces [1] S32x1) (b : Fin 32) (u : Fin 1) (k : Fin (S32x8x1.size 1)) :
    h.lift (ix2 b u) k = ix3 b (⟨k.val, k.isLt⟩ : Fin 8) u := by
  funext c; apply Fin.ext
  fin_cases c <;> rfl

/-- A sum over parts at exact arithmetic: at (b, u) the sum of the 8 parts' entries. -/
theorem parts_apply (w : FVec Ideal S32x8x1 .f32) (h : S32x8x1.Reduces [1] S32x1) (hφ : FKind.Formats .f32)
    (hacc : (0x00000000#32 : BitVec 32) = 0x00000000#32) (b : Fin 32) (u : Fin 1) :
    multiReduction .add [1] S32x1 w 0x00000000#32 h hφ hacc (ix2 b u) = ∑ p : Fin 8, w (ix3 b p u) := by
  refine (Ideal.multiReduction_add_single w 0x00000000#32 h hφ hacc (ix2 b u)).trans ?_
  exact Finset.sum_congr rfl fun k _ => congrArg w (lift_parts h b u k)

/-- A [32, 8] table cast to [32, 8, 1] reads, at (b, p, u), the table at (b, p). -/
theorem keepPositions_apply (v : S32x8.Idx → α) (h : S32x8.ShapeCasts S32x8x1) (b : Fin 32) (p : Fin 8) (u : Fin 1) :
    shapeCast S32x8x1 v h (ix3 b p u) = v (ix2 b p) :=
  shapeCast_apply v h _ _ (by
    have hu : u.val = 0 := by omega
    rw [Shape.rowMajor_val_two, Shape.rowMajor_val_three]
    show b.val * 8 + p.val = (b.val * 8 + p.val) * 1 + u.val
    omega)

/-- Row j of a [32, 8, 288] array, taken as a [32, 1, 288] slice and flattened to [32, 288], reads at (b, q) the
    array at (b, j, q). -/
theorem row_apply (v : S32x8x288.Idx → α) (j : ℕ) (hj : j < 8) (sj : S32x8x288.Slices ![0, j, 0] S32x1x288)
    (c1 : S32x1x288.ShapeCasts S32x288) (b : Fin 32) (q : Fin 288) :
    shapeCast S32x288 (extractStridedSlice S32x1x288 ![0, j, 0] v sj) c1 (ix2 b q) = v (ix3 b (⟨j, hj⟩ : Fin 8) q) := by
  refine (shapeCast_apply _ c1 (ix2 b q) (ix3 b (0 : Fin 1) q) ?_).trans ?_
  · rw [Shape.rowMajor_val_two, Shape.rowMajor_val_three]
    show (b.val * 1 + 0) * 288 + q.val = b.val * 288 + q.val
    omega
  · exact extractStridedSlice_apply _ v sj _ _ (fun a => by
      match a with
      | ⟨0, _⟩ => exact (Nat.zero_add _).symm
      | ⟨1, _⟩ => exact (Nat.add_zero _).symm
      | ⟨2, _⟩ => exact (Nat.zero_add _).symm)

/-- One pair's column: rows j and k, their pointwise minimum, summed over positions and kept as a [32, 1] column, reads
    at (b, u) the overlap of parts j and k of image b. -/
theorem pairColumn_apply (v : FVec Ideal S32x8x288 .f32) (j k : ℕ) (hj : j < 8) (hk : k < 8)
    (sj : S32x8x288.Slices ![0, j, 0] S32x1x288) (sk : S32x8x288.Slices ![0, k, 0] S32x1x288)
    (c1 c2 : S32x1x288.ShapeCasts S32x288) (h : S32x288.Reduces [1] S32) (hφ : FKind.Formats .f32)
    (hacc : (0x00000000#32 : BitVec 32) = 0x00000000#32) (c3 : S32.ShapeCasts S32x1) (b : Fin 32) (u : Fin 1) :
    shapeCast S32x1 (multiReduction .add [1] S32
        (minimumf (shapeCast S32x288 (extractStridedSlice S32x1x288 ![0, j, 0] v sj) c1)
          (shapeCast S32x288 (extractStridedSlice S32x1x288 ![0, k, 0] v sk) c2)) 0x00000000#32 h hφ hacc) c3 (ix2 b u)
      = pair (fun p q => v (ix3 b p q)) ⟨j, hj⟩ ⟨k, hk⟩ := by
  refine (shapeCast_a_a1_apply _ c3 b u).trans ?_
  refine (rowSum_apply _ h hφ hacc b).trans ?_
  unfold pair
  refine Finset.sum_congr rfl fun q _ => ?_
  rw [minimumf_apply, row_apply v j hj sj c1 b q, row_apply v k hk sk c2 b q]

/-- The first five pairs: zero, then the overlaps of part 0 with parts 1 to 4. -/
theorem pay3_apply (x : Vec Ideal S32x8x288 .f32) (b : Fin 32) (u : Fin 1) :
    k1_pay3 (F := Ideal) x (ix2 b u)
      = 0 + pair (fun p q => k1_pay2 (F := Ideal) x (ix3 b p q)) 0 1 + pair (fun p q => k1_pay2 (F := Ideal) x (ix3 b p q)) 0 2
          + pair (fun p q => k1_pay2 (F := Ideal) x (ix3 b p q)) 0 3 + pair (fun p q => k1_pay2 (F := Ideal) x (ix3 b p q)) 0 4 := by
  unfold k1_pay3
  simp only [addf_apply]
  repeat' (first
    | exact Ideal.ofBits_zero_f32
    | exact pairColumn_apply (k1_pay2 (F := Ideal) x) _ _ _ _ _ _ _ _ _ _ _ _ b u
    | congr 1)

/-- The next seven pairs, the first of them entering as the pointwise minimum already formed. -/
theorem pay5_apply (x : Vec Ideal S32x8x288 .f32) (v42 : FVec Ideal S32x1 .f32) (b : Fin 32) (u : Fin 1) :
    k1_pay5 (F := Ideal) (k1_pay2 (F := Ideal) x) v42 (k1_pay4 (F := Ideal) x) (ix2 b u)
      = v42 (ix2 b u) + pair (fun p q => k1_pay2 (F := Ideal) x (ix3 b p q)) 0 5 + pair (fun p q => k1_pay2 (F := Ideal) x (ix3 b p q)) 0 6 + pair (fun p q => k1_pay2 (F := Ideal) x (ix3 b p q)) 0 7 + pair (fun p q => k1_pay2 (F := Ideal) x (ix3 b p q)) 1 2 + pair (fun p q => k1_pay2 (F := Ideal) x (ix3 b p q)) 1 3 + pair (fun p q => k1_pay2 (F := Ideal) x (ix3 b p q)) 1 4 + pair (fun p q => k1_pay2 (F := Ideal) x (ix3 b p q)) 1 5 := by
  unfold k1_pay5 k1_pay4
  simp only [addf_apply]
  repeat' (first
    | exact Ideal.ofBits_zero_f32
    | exact pairColumn_apply (k1_pay2 (F := Ideal) x) _ _ _ _ _ _ _ _ _ _ _ _ b u
    | congr 1)

/-- The next seven pairs, the first of them entering as its two rows. -/
theorem pay8_apply (v9 : FVec Ideal S32x8x288 .f32) (v98 : FVec Ideal S32x1 .f32) (b : Fin 32) (u : Fin 1) :
    k1_pay8 (F := Ideal) v9 v98 (k1_pay6 (F := Ideal) v9) (k1_pay7 (F := Ideal) v9) (ix2 b u)
      = v98 (ix2 b u) + pair (fun p q => v9 (ix3 b p q)) 1 6 + pair (fun p q => v9 (ix3 b p q)) 1 7 + pair (fun p q => v9 (ix3 b p q)) 2 3 + pair (fun p q => v9 (ix3 b p q)) 2 4 + pair (fun p q => v9 (ix3 b p q)) 2 5 + pair (fun p q => v9 (ix3 b p q)) 2 6 + pair (fun p q => v9 (ix3 b p q)) 2 7 := by
  unfold k1_pay8 k1_pay6 k1_pay7
  simp only [addf_apply]
  repeat' (first
    | exact Ideal.ofBits_zero_f32
    | exact pairColumn_apply v9 _ _ _ _ _ _ _ _ _ _ _ _ b u
    | congr 1)

/-- The next six pairs. -/
theorem pay9_apply (v9 : FVec Ideal S32x8x288 .f32) (v154 : FVec Ideal S32x1 .f32) (b : Fin 32) (u : Fin 1) :
    k1_pay9 (F := Ideal) v9 v154 (ix2 b u)
      = v154 (ix2 b u) + pair (fun p q => v9 (ix3 b p q)) 3 4 + pair (fun p q => v9 (ix3 b p q)) 3 5 + pair (fun p q => v9 (ix3 b p q)) 3 6 + pair (fun p q => v9 (ix3 b p q)) 3 7 + pair (fun p q => v9 (ix3 b p q)) 4 5 + pair (fun p q => v9 (ix3 b p q)) 4 6 := by
  unfold k1_pay9
  simp only [addf_apply]
  repeat' (first
    | exact Ideal.ofBits_zero_f32
    | exact pairColumn_apply v9 _ _ _ _ _ _ _ _ _ _ _ _ b u
    | congr 1)

/-- The last four pairs, and the quotient by the clamped total. -/
theorem pay1_apply (v9 : FVec Ideal S32x8x288 .f32) (v202 : FVec Ideal S32x1 .f32) (b : Fin 32) (u : Fin 1) :
    k1_pay1 (F := Ideal) v9 v202 (k1_pay10 (F := Ideal) v9) (ix2 b u)
      = Ideal.div (v202 (ix2 b u) + pair (fun p q => v9 (ix3 b p q)) 4 7 + pair (fun p q => v9 (ix3 b p q)) 5 6 + pair (fun p q => v9 (ix3 b p q)) 5 7 + pair (fun p q => v9 (ix3 b p q)) 6 7)
          (max (∑ p : Fin 8, ∑ q : Fin 288, v9 (ix3 b p q)) eps) := by
  unfold k1_pay1 k1_pay10
  rw [divf_apply]
  refine congrArg₂ Ideal.div ?_ ?_
  · simp only [addf_apply]
    repeat' (first
      | exact Ideal.ofBits_zero_f32
      | exact pairColumn_apply v9 _ _ _ _ _ _ _ _ _ _ _ _ b u
      | congr 1)
  · rw [maximumf_apply, shapeCast_shapeCast]
    refine congrArg₂ max ?_ rfl
    refine (parts_apply _ _ _ _ b u).trans ?_
    refine Finset.sum_congr rfl fun p _ => ?_
    refine (keepPositions_apply _ _ b p u).trans ?_
    exact positions_apply _ _ _ _ b p

/-- The normalised array: each entry over its row's clamped norm. -/
theorem unit_apply (x : Vec Ideal S32x8x288 .f32) (b : Fin 32) (p : Fin 8) (q : Fin 288) :
    k1_pay2 (F := Ideal) x (ix3 b p q) = unit x b p q := by
  unfold k1_pay2
  simp only [shapeCast_self]
  rw [divf_apply]
  unfold unit rowNorm
  refine congrArg (Ideal.div _) ?_
  refine (broadcastTo_ab1_abc_apply _ _ b p q).trans ?_
  rw [maximumf_apply]
  refine congrArg₂ max ?_ rfl
  show Ideal.sqrt _ = Ideal.sqrt _
  refine congrArg Ideal.sqrt ?_
  refine (keepPositions_apply _ _ b p 0).trans ?_
  exact positions_apply _ _ _ _ b p

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's staging buffer: at (b, u) the ratio of image b of the staged array. -/
theorem out_apply (x0 : Vec Ideal S32x8x288 .f32) (b : Fin 32) (u : Fin 1) :
    out1_1 (F := Ideal) x0 (ix2 b u) = ratio x0 b := by
  unfold out1_1
  rw [View.canon_unit_zero hz2]
  simp only [View.ld_unit_zero (S := S32x8x288) hz3]
  rw [pay1_apply, pay9_apply, pay8_apply, pay5_apply, pay3_apply]
  have e : (fun p q => k1_pay2 (F := Ideal) x0 (ix3 b p q)) = unit x0 b :=
    funext fun p => funext fun q => unit_apply x0 b p q
  rw [e]
  unfold ratio upper
  simp only [unit_apply]

/-! ## From the one block to the array -/

variable (V : (c : Dev nD) → (b : Ref sig .tc) → Buf (Elt Ideal) ((c : Thread nD τ).loc b))

/-- The column of ratios of a squared-feature array. -/
def ratios (f : S32x8x288.Idx → EReal) : S32x1.Idx → EReal := fun i => ratio f (i 0)

/-- The printed index maps at the one grid point: every block coordinate is zero. -/
theorem idx_facts : ∀ t : Fin cfg1.N, win1_0.index t (0 : Fin 3) = 0 ∧ win1_0.index t (1 : Fin 3) = 0
    ∧ win1_0.index t (2 : Fin 3) = 0 ∧ win1_1.index t (0 : Fin 2) = 0 ∧ win1_1.index t (1 : Fin 2) = 0 :=
  (by decide +kernel : ∀ t : Fin grid1.N, _)

/-- The staged block is the whole operand. -/
theorem iblk_eq (c : Dev nD) (t : Fin cfg1.N) : iblk1 V c 0 t = V c main_v2 := by
  obtain ⟨e0, e1, e2, -, -⟩ := idx_facts t
  funext y
  show V c main_v2 (((cfg1.win 0).blk t).view.emb y) = V c main_v2 y
  refine congrArg (V c main_v2) (funext fun a => Fin.ext ?_)
  match a with
  | ⟨0, _⟩ => show win1_0.index t 0 * 32 + 1 * (y 0).val = (y 0).val; rw [e0]; omega
  | ⟨1, _⟩ => show win1_0.index t 1 * 8 + 1 * (y 1).val = (y 1).val; rw [e1]; omega
  | ⟨2, _⟩ => show win1_0.index t 2 * 288 + 1 * (y 2).val = (y 2).val; rw [e2]; omega

/-- What the one point writes back is the whole column of ratios of the operand as the region finds it. -/
theorem flushed_eq (c : Dev nD) (t : Fin cfg1.N) :
    (dat1 V c).flushed 1 t = ((cfg1.win 1).blk t).view.read (Elt Ideal) (ratios (V c main_v2)) := by
  show (cfg1.win 1).cut (grid1.coords t) ((dat1 V c).after 1 t) = _
  rw [after1_1, iblk_eq]
  obtain ⟨-, -, -, e3, e4⟩ := idx_facts t
  funext j
  obtain ⟨b, u, rfl⟩ : ∃ (b : Fin 32) (u : Fin 1), j = ix2 b u := ⟨j 0, j 1, eq_ix2 j⟩
  show out1_1 (V c main_v2) (ix2 b u) = ratios (V c main_v2) (((cfg1.win 1).blk t).view.emb (ix2 b u))
  rw [out_apply]
  unfold ratios
  refine congrArg (ratio (V c main_v2)) (Fin.ext ?_)
  show b.val = win1_1.index t 0 * 32 + 1 * b.val
  rw [e3]; omega

/-- An index of the output array is in the point's block iff each coordinate is in the block's range on its axis. -/
theorem mem_blk (t : Fin cfg1.N) (i : S32x1.Idx) :
    i ∈ ((cfg1.win 1).blk t).view.set ↔ ∀ a : Fin 2, win1_1.index t a * S32x1.size a ≤ (i a).val
      ∧ (i a).val < win1_1.index t a * S32x1.size a + S32x1.size a := by
  show i ∈ ((View.whole main_v3).slice (win1_1.rect t)).set ↔ _
  rw [View.set_slice_whole, Rect.mem_set_unit]
  exact Iff.rfl

/-- The one block is the whole output. -/
theorem covered (i : S32x1.Idx) :
    ∃ t : Fin cfg1.N, (cfg1.win 1).flush t = true ∧ i ∈ ((cfg1.win 1).blk t).view.set := by
  have h0 : (i 0).val < 32 := (i 0).isLt
  have h1 : (i 1).val < 1 := (i 1).isLt
  obtain ⟨-, -, -, e3, e4⟩ := idx_facts t1_0
  refine ⟨t1_0, flush1_1 _, ?_⟩
  rw [mem_blk]
  intro a
  match a with
  | ⟨0, _⟩ =>
    show win1_1.index t1_0 0 * 32 ≤ (i 0).val ∧ (i 0).val < win1_1.index t1_0 0 * 32 + 32
    rw [e3]; omega
  | ⟨1, _⟩ =>
    show win1_1.index t1_0 1 * 1 ≤ (i 1).val ∧ (i 1).val < win1_1.index t1_0 1 * 1 + 1
    rw [e4]; omega

/-- So the output array ends holding the ratios of the operand as the region finds it. -/
theorem final (c : Dev nD) : (dat1 V c).arrAt 1 cfg1.N = ratios (V c main_v2) :=
  (dat1 V c).arrAt_eq_of_cover 1 (ratios (V c main_v2)) (fun t _ => flushed_eq V c t) covered

end Cert.KernelIdeal.Ratio

end
-- ==== Proof.KernelValue.lean ====
/-
  The idealized kernel's result as a function of its input.

  The fold through @main's five segments, read backwards from the result buffer: the result is the host's sum of the
  [32, 1] column the second kernel leaves, from zero; that column is the ratios of the array the second kernel finds,
  which is the reshape to [32, 8, 288] of what the first kernel leaves; that is the channel sums of squares of the
  array the first kernel finds, which is the input reshaped to [256, 512, 288].  The sum of the column is the sum of
  the 32 ratios, so the result is the loss of the kernel's squared-feature array.
-/
import proofs.«150542_j46866683133955_2_alg».proof.Proof.KernelRun
import proofs.«150542_j46866683133955_2_alg».proof.Proof.SquareSum
import proofs.«150542_j46866683133955_2_alg».proof.Proof.Ratio
import Idealize.ShloMosaic.Lib.StableHlo.Run
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Cert.Overlap

variable (m : (ℓ : Loc nD τ sig) → Buf (Elt Ideal) ℓ) (ρ : Dev nD → PrngReg)

/-- The squared-feature array the kernel forms from an input: reshape, channel sums of squares, reshape. -/
def features (X : S32x8x512x24x12.Idx → EReal) : S32x8x288.Idx → EReal :=
  shapeCast S32x8x288
    (SquareSum.channelSums (shapeCast S256x512x288 X Facts₀.shapeCasts_S32x8x512x24x12_S256x512x288))
    Facts₀.shapeCasts_S256x288_S32x8x288

/-- The first kernel finds the input reshaped. -/
theorem entry0 (c : Dev nD) :
    (V1 m ρ c main_v0 : S256x512x288.Idx → EReal)
      = shapeCast S256x512x288 (m ((c : Thread nD τ).loc main_arg0)) Facts₀.shapeCasts_S32x8x512x24x12_S256x512x288 := by
  show StableHlo.after hostOps0 (W0 m ρ c) (Proc.devRef .tc main_v0) = _
  after_results
  rfl

/-- The second kernel finds the first kernel's output reshaped: the kernel's squared-feature array. -/
theorem entry1 (c : Dev nD) :
    (V3 m ρ c main_v2 : S32x8x288.Idx → EReal) = features (m ((c : Thread nD τ).loc main_arg0)) := by
  have h : (V3 m ρ c main_v2 : S32x8x288.Idx → EReal)
      = shapeCast S32x8x288 (W2 m ρ c (Proc.devRef .tc main_v1)) Facts₀.shapeCasts_S256x288_S32x8x288 := by
    show StableHlo.after hostOps1 (W2 m ρ c) (Proc.devRef .tc main_v2) = _
    after_results
    rfl
  rw [h]
  unfold features
  refine congrArg (fun y => shapeCast S32x8x288 y Facts₀.shapeCasts_S256x288_S32x8x288) ?_
  refine (W2_arr m ρ c 1).trans ?_
  rw [SquareSum.final, entry0]

/-- The host's last line: the result is the sum of the second kernel's column from zero. -/
theorem tail (c : Dev nD) :
    (W5 m ρ c (Proc.devRef .tc main_v4) : S_.Idx → EReal)
      = Host.reduceAdd (F := Ideal) (W4 m ρ c (Proc.devRef .tc main_v3)) (constant (F := Ideal) S_ .f32 0x00000000#32)
          Facts₀.reducesTo_S32x1_S_d0_1 Facts₀.h_S_ := by
  show StableHlo.after hostOps2 (W4 m ρ c) (Proc.devRef .tc main_v4) = _
  after_results

/-- The result buffer after the run: the loss of the kernel's squared-feature array, at its one index. -/
theorem result_eq (c : Dev nD) :
    (W5 m ρ c (Proc.devRef .tc main_v4) : S_.Idx → EReal)
      = fun _ => loss (features (m ((c : Thread nD τ).loc main_arg0))) := by
  rw [tail]
  have hcol : (W4 m ρ c (Proc.devRef .tc main_v3) : S32x1.Idx → EReal)
      = Ratio.ratios (features (m ((c : Thread nD τ).loc main_arg0))) := by
    refine (W4_arr m ρ c 1).trans ?_
    rw [Ratio.final, entry1]
  rw [hcol]
  funext i
  simp only [Host.reduceAdd, Ideal.hostReduceAdd_def]
  rw [Ideal.hostReduceAdd_total Facts₀.reducesTo_S32x1_S_d0_1 (fun b => b.elim0)]
  show Ideal.ofBits .f32 0x00000000#32 + _ = _
  rw [Ideal.ofBits_zero_f32, zero_add, sum_idx2]
  unfold loss Ratio.ratios
  exact Finset.sum_congr rfl fun b _ => Fintype.sum_unique _

end Cert.KernelIdeal.KernelValue

end
-- ==== Proof.LibVectorSum.lean ====
/-
  A sum over the indices of a one-axis array is the sum over its one coordinate: the indices of an array [n]
  correspond one to one to the numbers below n.
-/
import Idealize.ShloMosaic.Lib.ValueIdx

namespace Cert.Lib.VectorSum

open Idealize.ShloMosaic Idealize.ShloMosaic.ValueIdx

/-- The numbers below n and the indices of an array [n], matched by the coordinate. -/
def idxEquiv1 {n : ℕ} : Fin n ≃ (⟨1, ![n]⟩ : Shape).Idx where
  toFun := ix1
  invFun j := j 0
  left_inv _ := rfl
  right_inv j := (eq_ix1 j).symm

/-- A sum over the indices of an array [n], in any commutative additive monoid, is the sum over i below n of the
    summand at the index with coordinate i. -/
theorem sum_idx1 {M : Type*} [AddCommMonoid M] {n : ℕ} (f : (⟨1, ![n]⟩ : Shape).Idx → M) :
    ∑ j, f j = ∑ i : Fin n, f (ix1 i) :=
  (Equiv.sum_comp idxEquiv1 f).symm

end Cert.Lib.VectorSum
-- ==== Proof.LibIdx3Sum.lean ====
/-
  A sum over the indices of a three-axis array is the triple sum over its coordinates.

  The index set of an array [n0, n1, n2] is in bijection with Fin n0 x Fin n1 x Fin n2, each index being the triple
  of its coordinates; re-indexing a finite sum through a bijection does not change it, and a sum over a product is
  the iterated sum.  Holds in any commutative additive monoid.
-/
import Idealize.ShloMosaic.Lib.ValueIdx

namespace Cert.Lib.Idx3Sum

open Idealize.ShloMosaic Idealize.ShloMosaic.ValueIdx

/-- An index of a three-axis array is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a three-axis array, in any commutative additive monoid, is the iterated sum over the
    three coordinates of the summand at the index with those coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3Sum
-- ==== Proof.LibTrailingSum.lean ====
/-
  A sum over the two trailing axes of a three-axis array.

  The host's sum of an array [a, b, c] over its axes 1 and 2 into [a], at exact arithmetic, collects at p every entry whose
  leading coordinate is p.  Those entries are exactly the (p, j, k), so the result at p is the initial value plus
  the iterated sum over j and k of the entry at (p, j, k).  (The library reads a sum over ONE axis, or into a result
  whose axes all have size one; this is the remaining case a `jnp.sum(x, axis=(1, 2))` of a rank-3 array needs.)
-/
import proofs.«150542_j46866683133955_2_alg».proof.Proof.LibIdx3Sum
import Idealize.ShloMosaic.Lib.ValueIdx
import Idealize.ShloMosaic.PureOps.Ideal.Laws

namespace Cert.Lib.TrailingSum

open Idealize.ShloMosaic Idealize.ShloMosaic.ValueIdx Cert.Lib.Idx3Sum

/-- The host's sum of [a, b, c] over its two trailing axes into [a], at exact arithmetic, at p: the initial value plus
    the iterated sum over the two trailing coordinates. -/
theorem hostReduceAdd_trailing {a b c : ℕ} (h' : (⟨3, ![a, b, c]⟩ : Shape).ReducesTo [1, 2] (⟨1, ![a]⟩ : Shape))
    (x : (⟨3, ![a, b, c]⟩ : Shape).Idx → EReal) (init : EReal) (p : Fin a) :
    Ideal.hostReduceAdd h' x init (ix1 p) = init + ∑ j : Fin b, ∑ k : Fin c, x (ix3 p j k) := by
  unfold Ideal.hostReduceAdd
  refine congrArg (init + ·) ?_
  have hd : ∀ (a' : Fin a) (j : Fin b) (k : Fin c), h'.drop (ix3 a' j k) = ix1 p ↔ a' = p := by
    intro a' j k
    have hv : ((h'.drop (ix3 a' j k)) 0 : ℕ) = a'.val := rfl
    constructor
    · intro e
      exact Fin.ext (hv.symm.trans (congrArg (fun f => ((f 0 : Fin a) : ℕ)) e))
    · intro e
      funext d
      match d with
      | ⟨0, _⟩ => exact Fin.ext (hv.trans (congrArg Fin.val e))
  rw [Finset.sum_filter, sum_idx3]
  calc ∑ a' : Fin a, ∑ j : Fin b, ∑ k : Fin c, (if h'.drop (ix3 a' j k) = ix1 p then x (ix3 a' j k) else 0)
      = ∑ a' : Fin a, if a' = p then ∑ j : Fin b, ∑ k : Fin c, x (ix3 a' j k) else 0 := by
        refine Finset.sum_congr rfl fun a' _ => ?_
        by_cases e : a' = p
        · rw [if_pos e]
          exact Finset.sum_congr rfl fun j _ => Finset.sum_congr rfl fun k _ => if_pos ((hd a' j k).mpr e)
        · rw [if_neg e]
          exact Finset.sum_eq_zero fun j _ => Finset.sum_eq_zero fun k _ => if_neg (mt (hd a' j k).mp e)
    _ = ∑ j : Fin b, ∑ k : Fin c, x (ix3 p j k) := by
        rw [Finset.sum_ite_eq' Finset.univ p, if_pos (Finset.mem_univ p)]

end Cert.Lib.TrailingSum
-- ==== Proof.RefValue.lean ====
/-
  The reference, read as the part-separation loss of its own squared-feature array.

  The reference first forms f = (sum over channels of the squared input) reshaped to [32, 8, 288] (its value %2); all it
  does afterwards is a function of f alone.  Read one operation at a time: the row norms are the clamped square roots
  of the rows' sums of squares, %10 is f divided by them, %16 is the 8 x 8 table of pairwise overlaps per image, the
  triangular mask is 1 strictly above the diagonal and 0 elsewhere, so the masked table's total is the 28 overlaps
  above the diagonal; the denominator is the clamped total of %10; the result adds the 32 quotients.  The two sums
  over two axes at once are iterated sums over the two coordinates.
-/
import proofs.«150542_j46866683133955_2_alg».proof.Proof.Gen.ReferenceIdeal.Read
import proofs.«150542_j46866683133955_2_alg».proof.Proof.Overlap
import proofs.«150542_j46866683133955_2_alg».proof.Proof.LibVectorSum
import proofs.«150542_j46866683133955_2_alg».proof.Proof.LibTrailingSum
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Overlap Cert.Lib.VectorSum Cert.Lib.TrailingSum

/-- The input array's contents at exact arithmetic. -/
abbrev Arg := (⟨S32x8x512x24x12, .f32⟩ : BufTy).Contents (Elt Ideal)

/-! ## The reference's stages from %2 on, as functions of f = %2 -/

/-- %10: the normalised value. -/
theorem unit_apply (X : Arg) (b : Fin 32) (p : Fin 8) (q : Fin 288) :
    val_main_v10 (F := Ideal) X (ix3 b p q) = unit (val_main_v2 (F := Ideal) X) b p q := by
  have e : ∀ k : Fin 288, idx_main_v4 (idx_main_v5 (idx_main_v9 (ix3 b p q))) k = ix3 b p k := fun k =>
    funext fun a => by match a with | ⟨0, _⟩ => rfl | ⟨1, _⟩ => rfl | ⟨2, _⟩ => rfl
  rw [val_main_v10_apply, val_main_v9_apply, val_main_v8_apply, val_main_v6_apply, val_main_v5_apply, val_main_v4_apply,
    val_main_v7_apply, val_main_cst_1_apply, val_main_cst_0_apply]
  simp only [val_main_v3_apply, e]
  unfold unit rowNorm
  simp only [Ideal.hostDivf_def, Ideal.hostUnary_sqrt_def, Ideal.maximumf_def, Ideal.mulf_def, Ideal.ofBits_def,
    Ideal.ofBits_zero_f32, zero_add]

/-- The comparison the triangular mask makes, on the row and column numbers of an 8 x 8 table: row >= column exactly
    when the row is not below the column. -/
theorem triangle_word : ∀ j k : Fin 8,
    IntOp.cmpi .sge (IntOp.addi (BitVec.ofNat 32 j.val) 0#32) (BitVec.ofNat 32 k.val) = if j < k then 0#1 else 1#1 := by
  decide

/-- %20: the mask, 1 strictly above the diagonal and 0 elsewhere, the same for every image. -/
theorem mask_apply (b : Fin 32) (j k : Fin 8) :
    val_main_v20 (F := Ideal) (ix3 b j k) = if j < k then (1 : EReal) else 0 := by
  rw [val_main_v20_apply, val_main_v19_apply, val_main_v18_apply, val_main_call0_v4_apply, val_main_call0_v2_apply,
    val_main_call0_v0_apply, val_main_call0_v1_apply, val_main_call0_c_apply, val_main_call0_v3_apply,
    val_main_call0_v5_apply, val_main_call0_cst_apply, val_main_v17_apply, val_main_cst_3_apply]
  show Scalar.select (IntOp.cmpi .sge (IntOp.addi (BitVec.ofNat 32 j.val) 0#32) (BitVec.ofNat 32 k.val))
    (Ideal.ofBits .f32 0x00000000#32) (Ideal.ofBits .f32 0x3F800000#32) = _
  rw [triangle_word j k, Ideal.ofBits_zero_f32, show Ideal.ofBits .f32 0x3F800000#32 = 1 from IdealRules.sign_bit.ideal_onePat .f32]
  by_cases h : j < k
  · rw [if_pos h, if_pos h, select_zero]
  · rw [if_neg h, if_neg h, select_one]

/-- %16: the table of overlaps, each "zero plus" the sum over positions of the smaller normalised value. -/
theorem table_apply (X : Arg) (b : Fin 32) (j k : Fin 8) :
    val_main_v16 (F := Ideal) X (ix3 b j k) = 0 + pair (unit (val_main_v2 (F := Ideal) X) b) j k := by
  have e1 : ∀ q : Fin 288, idx_main_v11 (idx_main_v13 (idx_main_v16 (ix3 b j k) q)) = ix3 b j q := fun q =>
    funext fun a => by match a with | ⟨0, _⟩ => rfl | ⟨1, _⟩ => rfl | ⟨2, _⟩ => rfl
  have e2 : ∀ q : Fin 288, idx_main_v12 (idx_main_v14 (idx_main_v16 (ix3 b j k) q)) = ix3 b k q := fun q =>
    funext fun a => by match a with | ⟨0, _⟩ => rfl | ⟨1, _⟩ => rfl | ⟨2, _⟩ => rfl
  rw [val_main_v16_apply, val_main_cst_2_apply]
  simp only [val_main_v15_apply, val_main_v13_apply, val_main_v14_apply, val_main_v11_apply, val_main_v12_apply, e1, e2,
    unit_apply, Ideal.minimumf_def, Ideal.ofBits_def, Ideal.ofBits_zero_f32]
  rfl

/-- %22: the masked table's total over an image's 64 entries is the 28 overlaps above the diagonal. -/
theorem numerator_apply (X : Arg) (b : Fin 32) :
    val_main_v22 (F := Ideal) X (ix1 b) = upper (pair (unit (val_main_v2 (F := Ideal) X) b)) := by
  unfold val_main_v22
  simp only [Host.reduceAdd, Ideal.hostReduceAdd_def]
  refine (hostReduceAdd_trailing _ _ _ b).trans ?_
  rw [val_main_cst_4_apply, Ideal.ofBits_def, Ideal.ofBits_zero_f32, zero_add]
  refine Eq.trans ?_ (weighted_eq_upper _)
  refine Finset.sum_congr rfl fun j _ => Finset.sum_congr rfl fun k _ => ?_
  rw [val_main_v21_apply, table_apply, mask_apply]
  rfl

/-- %25: the clamped total of an image's normalised values. -/
theorem denominator_apply (X : Arg) (b : Fin 32) :
    val_main_v25 (F := Ideal) X (ix1 b)
      = max (∑ p : Fin 8, ∑ q : Fin 288, unit (val_main_v2 (F := Ideal) X) b p q) eps := by
  rw [val_main_v25_apply, val_main_v24_apply, val_main_cst_6_apply]
  unfold val_main_v23
  simp only [Host.reduceAdd, Ideal.hostReduceAdd_def]
  rw [hostReduceAdd_trailing _ _ _ b, val_main_cst_5_apply]
  simp only [unit_apply, Ideal.maximumf_def, Ideal.ofBits_def, Ideal.ofBits_zero_f32, zero_add]

/-- The reference's result is the loss of its squared-feature array. -/
theorem result_eq (X : Arg) (i : S_.Idx) :
    val_main_v27 (F := Ideal) X i = loss (val_main_v2 (F := Ideal) X) := by
  rw [val_main_v27_apply, val_main_cst_7_apply, Ideal.ofBits_def, Ideal.ofBits_zero_f32, zero_add, sum_idx1]
  unfold loss ratio
  refine Finset.sum_congr rfl fun b _ => ?_
  rw [val_main_v26_apply, numerator_apply, denominator_apply]
  rfl

end Cert.ReferenceIdeal.RefValue

end
-- ==== Proof.LibMergeRows.lean ====
/-
  A reshape that merges the two leading axes of a three-axis array into one, or splits them again, read at coordinates.

  Row-major order puts entry (p, q, k) of an [a, b, c] array at position (p·b + q)·c + k, and entry (r, k) of an [n, c]
  array at r·c + k; a reshape keeps positions.  So with r = p·b + q the two arrays hold the same value at (p, q, k) and
  (r, k), in either direction.  The row count n is a parameter of its own (with n = a·b implied by the reshape being
  legal), so that the lemmas apply to shapes written with literal sizes.
-/
import Idealize.ShloMosaic.Lib.Pipeline.Value
import Idealize.ShloMosaic.Lib.ValueIdx

namespace Cert.LibMergeRows

open Idealize.ShloMosaic Idealize.ShloMosaic.ValueIdx

variable {α : Type}

/-- An [a, b, c] array reshaped to [n, c] reads, at (r, k) with r = p·b + q, the operand at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- An [n, c] array reshaped to [a, b, c] reads, at (p, q, k), the operand at (r, k) with r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.LibMergeRows
-- ==== Proof.Bridge.lean ====
/-
  The two programs form the same squared-feature array.

  The kernel reshapes the input [32, 8, 512, 24, 12] to [256, 512, 288], sums the squares over the 512 channels and
  reshapes the [256, 288] result to [32, 8, 288]; the reference multiplies the input by itself, sums over axis 2 and
  reshapes [32, 8, 24, 12] to [32, 8, 288].  A reshape keeps row-major positions, so both arrays hold, at (b, p, q),
  the sum over channels c of the square of the input at (b, p, c, q / 12, q mod 12).
-/
import proofs.«150542_j46866683133955_2_alg».proof.Proof.KernelValue
import proofs.«150542_j46866683133955_2_alg».proof.Proof.RefValue
import proofs.«150542_j46866683133955_2_alg».proof.Proof.LibMergeRows

set_option maxRecDepth 16384

noncomputable section

namespace Cert.Bridge

open Idealize.ShloMosaic Idealize.ShloMosaic.ValueIdx
open Cert.ReferenceIdeal.Read

/-- The kernel's squared-feature array of an input is the reference's. -/
theorem features_eq (X : Cert.ReferenceIdeal.RefValue.Arg) :
    Cert.KernelIdeal.KernelValue.features X = val_main_v2 (F := Ideal) X := by
  funext i
  obtain ⟨b, p, q, rfl⟩ : ∃ (b : Fin 32) (p : Fin 8) (q : Fin 288), i = ix3 b p q := ⟨i 0, i 1, i 2, eq_ix3 i⟩
  have hb : b.val < 32 := b.isLt
  have hp : p.val < 8 := p.isLt
  have hq : q.val < 288 := q.isLt
  have hr : b.val * 8 + p.val < 256 := by omega
  unfold Cert.KernelIdeal.KernelValue.features
  rw [Cert.LibMergeRows.shapeCast_nc_abc_apply _ _ b p q ⟨b.val * 8 + p.val, hr⟩ rfl]
  rw [val_main_v2_apply, val_main_v1_apply, val_main_cst_apply, Ideal.ofBits_def, Ideal.ofBits_zero_f32, zero_add]
  unfold Cert.KernelIdeal.SquareSum.channelSums
  refine Finset.sum_congr rfl fun K _ => ?_
  rw [val_main_v0_apply]
  have e : shapeCast Cert.KernelIdeal.S256x512x288 X
        Cert.KernelIdeal.Facts₀.shapeCasts_S32x8x512x24x12_S256x512x288
        (ix3 (⟨b.val * 8 + p.val, hr⟩ : Fin 256) K q)
      = X (idx_main_v1 (idx_main_v2 (ix3 b p q)) K) :=
    shapeCast_apply X _ _ _ (by
      have hK : K.val < 512 := K.isLt
      rw [Shape.rowMajor_val_five, Shape.rowMajor_val_three]
      show ((((((b.val * 8 + p.val) * 288 + q.val) / 2304) * 8 + ((b.val * 8 + p.val) * 288 + q.val) / 288 % 8) * 512
          + K.val) * 24 + ((b.val * 8 + p.val) * 288 + q.val) / 12 % 24) * 12 + ((b.val * 8 + p.val) * 288 + q.val) % 12
        = ((b.val * 8 + p.val) * 512 + K.val) * 288 + q.val
      omega)
  show shapeCast Cert.KernelIdeal.S256x512x288 X _ (ix3 (⟨b.val * 8 + p.val, hr⟩ : Fin 256) K q)
      * shapeCast Cert.KernelIdeal.S256x512x288 X _ (ix3 (⟨b.val * 8 + p.val, hr⟩ : Fin 256) K q) = _
  rw [e]
  rfl

end Cert.Bridge

end
-- ==== Proof.lean ====
/-
  The certificate of a part-separation loss kernel against its jnp reference, at exact arithmetic.

  Both programs take inputs [32 images, 8 parts, 512 channels, 24, 12].  They first form the same array
  f[b, p, q] = sum over channels of the squared input (q the 288 positions), and then the same loss of f: each part's
  row divided by its clamped Euclidean norm; for every pair of parts j < k the overlap, the sum over positions of the
  smaller normalised value; per image the 28 overlaps added, divided by the clamped total of the normalised values;
  the 32 quotients added.  The kernel does the first step in a 16-point gridded region that adds the channels in four
  chunks, the second in a one-point region that adds the 28 overlaps pair by pair, and the last sum on the host; the
  reference writes the overlaps as an 8 x 8 table weighted by a strictly-upper-triangular mask of ones.  The two agree
  on the extended reals by regrouping sums and by x * 0 = 0, x * 1 = x alone, so the precondition is never opened.

    frame_Kernel, frame_KernelIdeal   the generated frames of the two-region programs;
    frame_ReferenceIdeal              the reference's generated run, its result dropped;
    preserves_Kernel_KernelIdeal      the ideal pass rewrote nothing: True;
    algebraic                         KernelRun (the kernel's run with its result named), KernelValue (that result is the
                                      loss of the kernel's f: SquareSum and Ratio read the two regions), RefValue (the
                                      reference's result is the loss of its f), Bridge (the two f are one array).
-/
import proofs.«150542_j46866683133955_2_alg».proof.Defs
import proofs.«150542_j46866683133955_2_alg».proof.Proof.Gen.Kernel
import proofs.«150542_j46866683133955_2_alg».proof.Proof.Gen.Kernel.Skeleton
import proofs.«150542_j46866683133955_2_alg».proof.Proof.Gen.Kernel.Launch
import proofs.«150542_j46866683133955_2_alg».proof.Proof.Gen.Kernel.Points
import proofs.«150542_j46866683133955_2_alg».proof.Proof.Gen.Kernel.Frame
import proofs.«150542_j46866683133955_2_alg».proof.Proof.Gen.KernelIdeal
import proofs.«150542_j46866683133955_2_alg».proof.Proof.Gen.KernelIdeal.Skeleton
import proofs.«150542_j46866683133955_2_alg».proof.Proof.Gen.KernelIdeal.Launch
import proofs.«150542_j46866683133955_2_alg».proof.Proof.Gen.KernelIdeal.Points
import proofs.«150542_j46866683133955_2_alg».proof.Proof.Gen.KernelIdeal.Frame
import proofs.«150542_j46866683133955_2_alg».proof.Proof.Gen.ReferenceIdeal
import proofs.«150542_j46866683133955_2_alg».proof.Proof.Gen.Pre_finite_inputs
import proofs.«150542_j46866683133955_2_alg».proof.Proof.Gen.ReferenceIdeal.Run
import proofs.«150542_j46866683133955_2_alg».proof.Proof.Gen.ReferenceIdeal.Read
import proofs.«150542_j46866683133955_2_alg».proof.Proof.KernelRun
import proofs.«150542_j46866683133955_2_alg».proof.Proof.KernelValue
import proofs.«150542_j46866683133955_2_alg».proof.Proof.RefValue
import proofs.«150542_j46866683133955_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both results are the loss of one squared-feature array: the kernel's by its run read through its two regions, the
    reference's by its run read one operation at a time, the two arrays one by the reshapes' row-major positions. -/
theorem algebraic : Cert.algebraic_KernelIdeal_ReferenceIdeal := by
  intro m ρ m' ρ' _ hagree
  refine ⟨fun c => fun _ => Cert.Overlap.loss
      (Cert.ReferenceIdeal.Read.val_main_v2 (F := Ideal) (m ((c.tc : Thread Cert.KernelIdeal.nD Cert.KernelIdeal.τ).loc Cert.KernelIdeal.main_arg0))), ?_, ?_⟩
  · refine (θ_run Cert.KernelIdeal.defs _ _).mono (fun r h c => ⟨(h c).1.trans ?_, (h c).2⟩)
      (Cert.KernelIdeal.RunValue.run (F := Ideal) m ρ)
    exact (Cert.KernelIdeal.KernelValue.result_eq m ρ c).trans
      (congrArg (fun f => fun _ => Cert.Overlap.loss f) (Cert.Bridge.features_eq _))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, (hagree c).1]
    exact funext fun i => Cert.ReferenceIdeal.RefValue.result_eq _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
